-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S1024x512 : Shape := ⟨2, ![1024, 512]⟩
abbrev S1024 : Shape := ⟨1, ![1024]⟩
abbrev S1000x1024 : Shape := ⟨2, ![1000, 1024]⟩
abbrev S1000 : Shape := ⟨1, ![1000]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_
  bcast_S_S1000x1024 : S_.BroadcastsInDim S1000x1024 (![] : Fin 0 → Fin S1000x1024.rank)
  reducesTo_S1000x1024_S_d0_1 : S1000x1024.ReducesTo [0, 1] S_
  bcast_S_S1000 : S_.BroadcastsInDim S1000 (![] : Fin 0 → Fin S1000.rank)
  reducesTo_S1000_S_d0 : S1000.ReducesTo [0] S_

variable [Facts]

def fn_part1 {F : FTy → Type} [FloatOps F] (main_arg2 : FVec F S1024 .f32) (main_arg4 : FVec F S1000 .f32) (main_v13 : IVec S_ 1) (main_v16 : IVec S1000x1024 1) : IVec S_ 1 :=
  let main_c_5 : IVec S_ 1 := constantI S_ 1 1#1
  let main_v17 : IVec S_ 1 := (fun x v => Host.reduce IntOp.andi x v reducesTo_S1000x1024_S_d0_1 h_S_) main_v16 main_c_5
  let main_v18 : IVec S_ 1 := andi main_v13 main_v17
  let main_v19 : FVec F S1000 .f32 := Host.absf main_arg4
  let main_cst_6 : FVec F S_ .f32 := constant S_ .f32 0x7F800000#32
  let main_v20 : FVec F S1000 .f32 := broadcastInDim S1000 ![] bcast_S_S1000 main_cst_6
  let main_v21 : IVec S1000 1 := cmpf .olt main_v19 main_v20
  let main_c_7 : IVec S_ 1 := constantI S_ 1 1#1
  let main_v22 : IVec S_ 1 := (fun x v => Host.reduce IntOp.andi x v reducesTo_S1000_S_d0 h_S_) main_v21 main_c_7
  let main_v23 : IVec S_ 1 := andi main_v18 main_v22
  let main_cst_8 : FVec F S_ .f32 := constant S_ .f32 0x00000000#32
  let main_v24 : FVec F S1024 .f32 := broadcastInDim S1024 ![] bcast_S_S1024 main_cst_8
  let main_v25 : IVec S1024 1 := cmpf .une main_arg2 main_v24
  let main_c_9 : IVec S_ 1 := constantI S_ 1 1#1
  let main_v26 : IVec S_ 1 := (fun x v => Host.reduce IntOp.andi x v reducesTo_S1024_S_d0 h_S_) main_v25 main_c_9
  let main_v27 : IVec S_ 1 := andi main_v23 main_v26
  main_v27

def fn {F : FTy → Type} [FloatOps F] (main_arg0 : FVec F S8192x512 .f32) (main_arg1 : FVec F S1024x512 .f32) (main_arg2 : FVec F S1024 .f32) (main_arg3 : FVec F S1000x1024 .f32) (main_arg4 : FVec F S1000 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1000x1024 .f32 := Host.absf main_arg3
  let main_cst_4 : FVec F S_ .f32 := constant S_ .f32 0x7F800000#32
  let main_v15 : FVec F S1000x1024 .f32 := broadcastInDim S1000x1024 ![] bcast_S_S1000x1024 main_cst_4
  let main_v16 : IVec S1000x1024 1 := cmpf .olt main_v14 main_v15
  fn_part1 (F := F) main_arg2 main_arg4 main_v13 main_v16
-- ==== Kernel.lean ====
abbrev S8192x512 : Shape := ⟨2, ![8192, 512]⟩
abbrev S1024x512 : Shape := ⟨2, ![1024, 512]⟩
abbrev S1024 : Shape := ⟨1, ![1024]⟩
abbrev S1000x1024 : Shape := ⟨2, ![1000, 1024]⟩
abbrev S1000 : Shape := ⟨1, ![1000]⟩
abbrev S_ : Shape := ⟨0, ![]⟩
abbrev S8192x1000 : Shape := ⟨2, ![8192, 1000]⟩
abbrev S1024x1000 : Shape := ⟨2, ![1024, 1000]⟩
abbrev S1024x1 : Shape := ⟨2, ![1024, 1]⟩
abbrev S1024x1024 : Shape := ⟨2, ![1024, 1024]⟩
abbrev S1x1024 : Shape := ⟨2, ![1, 1024]⟩
abbrev S1x1000 : Shape := ⟨2, ![1, 1000]⟩

abbrev nBuf : Space → Nat
  | .hbm => 15
  | .vmem => 9
  | .smem => 0
  | _ => 0

abbrev bufTy : (tb : Table) → Fin (tcTables nBuf tb) → BufTy
  | .hbm, ⟨0, _⟩ => ⟨S8192x512, .f32⟩
  | .hbm, ⟨1, _⟩ => ⟨S1024x512, .f32⟩
  | .hbm, ⟨2, _⟩ => ⟨S1024, .f32⟩
  | .hbm, ⟨3, _⟩ => ⟨S1000x1024, .f32⟩
  | .hbm, ⟨4, _⟩ => ⟨S1000, .f32⟩
  | .hbm, ⟨5, _⟩ => ⟨S1024x512, .bf16⟩
  | .hbm, ⟨6, _⟩ => ⟨S1000x1024, .bf16⟩
  | .hbm, ⟨7, _⟩ => ⟨S1024x512, .f32⟩
  | .hbm, ⟨8, _⟩ => ⟨S_, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S8192x1000, .f32⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024, .f32⟩
  | .local _ .vmem, ⟨4, _⟩ => ⟨S1024, .f32⟩
  | .local _ .vmem, ⟨5, _⟩ => ⟨S1000x1024, .bf16⟩
  | .local _ .vmem, ⟨6, _⟩ => ⟨S1000, .f32⟩
  | .local _ .vmem, ⟨7, _⟩ => ⟨S1024x1000, .f32⟩
  | .local _ .vmem, ⟨8, _⟩ => ⟨S1024x1000, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1000x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1000 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1000 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  reducesTo_S1024x512_S1024_d1 : S1024x512.ReducesTo [1] S1024
  h_S_ : 0 < S_.numel
  bcast_S_S1024 : S_.BroadcastsInDim S1024 (![] : Fin 0 → Fin S1024.rank)
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  shapeCasts_S1024x512_S1024x512 : S1024x512.ShapeCasts S1024x512
  inb_S1024_S1024_0 : ∀ a, (![0] : Fin 1 → Nat) a + S1024.size a ≤ S1024.size a
  h_S1024 : 0 < S1024.numel
  shapeCasts_S1024_S1024 : S1024.ShapeCasts S1024
  shapeCasts_S1024_S1x1024 : S1024.ShapeCasts S1x1024
  broadcasts_S1024x1_S1024x1024 : S1024x1.Broadcasts S1024x1024
  broadcasts_S1x1024_S1024x1024 : S1x1024.Broadcasts S1024x1024
  inb_S1000x1024_S1000x1024_0_0 : ∀ a, (![0, 0] : Fin 2 → Nat) a + S1000x1024.size a ≤ S1000x1024.size a
  h_S1000x1024 : 0 < S1000x1024.numel
  shapeCasts_S1000x1024_S1000x1024 : S1000x1024.ShapeCasts S1000x1024
  inb_S1000_S1000_0 : ∀ a, (![0] : Fin 1 → Nat) a + S1000.size a ≤ S1000.size a
  h_S1000 : 0 < S1000.numel
  shapeCasts_S1000_S1x1000 : S1000.ShapeCasts S1x1000
  broadcasts_S1x1000_S1024x1000 : S1x1000.Broadcasts S1024x1000
  inb_S1024x1000_S1024x1000_0_0 : ∀ a, (![0, 0] : Fin 2 → Nat) a + S1024x1000.size a ≤ S1024x1000.size a
  h_S1024x1000 : 0 < S1024x1000.numel
  dot_S1024x512_S1024x512_S1024x1024_1_1_0_0_n_n_wf : DotDims.WF S1024x512 S1024x512 S1024x1024 [1] [1] [0] [0] [] []
  dot_S1024x1024_S1000x1024_S1024x1000_1_1_0_0_n_n_wf : DotDims.WF S1024x1024 S1000x1024 S1024x1000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .bf16 = 32 ∨ (Rect.block (s := S1024x512) S1024x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1000x1024.size a ≤ S1000x1024.size a
  hwx0_4 : ∀ i : grid0.Coords, EltTy.bits .bf16 = 32 ∨ (Rect.block (s := S1000x1024) S1000x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1000.size a ≤ S1000.size a
  hwx0_5 : ∀ i : grid0.Coords, EltTy.bits .f32 = 32 ∨ (Rect.block (s := S1000) S1000.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1000.size a ≤ S8192x1000.size a
  hwx0_6 : ∀ i : grid0.Coords, EltTy.bits .f32 = 32 ∨ (Rect.block (s := S8192x1000) S1024x1000.size (cc0_transform_6 i) (hinb0_6 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S1024x1024_S1000x1024_S1024x1000_1_1_0_0_n_n : DotDims S1024x1024 S1000x1024 S1024x1000 where
  lhsContracting := [1]
  rhsContracting := [1]
  lhsNonContracting := [0]
  rhsNonContracting := [0]
  lhsBatch := []
  rhsBatch := []
  wf := dot_S1024x1024_S1000x1024_S1024x1000_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1000x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1000.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1024x1000.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x512 : Shape := ⟨2, ![8192, 512]⟩
abbrev S1024x512 : Shape := ⟨2, ![1024, 512]⟩
abbrev S1024 : Shape := ⟨1, ![1024]⟩
abbrev S1000x1024 : Shape := ⟨2, ![1000, 1024]⟩
abbrev S1000 : Shape := ⟨1, ![1000]⟩
abbrev S_ : Shape := ⟨0, ![]⟩
abbrev S8192 : Shape := ⟨1, ![8192]⟩
abbrev S8192x1 : Shape := ⟨2, ![8192, 1]⟩
abbrev S8192x1024 : Shape := ⟨2, ![8192, 1024]⟩
abbrev S1x1024 : Shape := ⟨2, ![1, 1024]⟩
abbrev S8192x1000 : Shape := ⟨2, ![8192, 1000]⟩
abbrev S1x1000 : Shape := ⟨2, ![1, 1000]⟩

abbrev nBuf : Space → Nat
  | .hbm => 36
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S1024x512, .f32⟩
  | .hbm, ⟨2, _⟩ => ⟨S1024, .f32⟩
  | .hbm, ⟨3, _⟩ => ⟨S1000x1024, .f32⟩
  | .hbm, ⟨4, _⟩ => ⟨S1000, .f32⟩
  | .hbm, ⟨5, _⟩ => ⟨S8192x512, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S1024x512, .f32⟩
  | .hbm, ⟨10, _⟩ => ⟨S_, .f32⟩
  | .hbm, ⟨11, _⟩ => ⟨S1024, .f32⟩
  | .hbm, ⟨12, _⟩ => ⟨S8192x1024, .f32⟩
  | .hbm, ⟨13, _⟩ => ⟨S1x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1000, .f32⟩
  | .hbm, ⟨33, _⟩ => ⟨S1x1000, .f32⟩
  | .hbm, ⟨34, _⟩ => ⟨S8192x1000, .f32⟩
  | .hbm, ⟨35, _⟩ => ⟨S8192x1000, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  reducesTo_S1024x512_S1024_d1 : S1024x512.ReducesTo [1] S1024
  bcast_S1024_S1x1024_1 : S1024.BroadcastsInDim S1x1024 (![1] : Fin 1 → Fin S1x1024.rank)
  bcast_S8192x1_S8192x1024_0_1 : S8192x1.BroadcastsInDim S8192x1024 (![0, 1] : Fin 2 → Fin S8192x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  bcast_S1000_S1x1000_1 : S1000.BroadcastsInDim S1x1000 (![1] : Fin 1 → Fin S1x1000.rank)
  bcast_S1x1000_S8192x1000_0_1 : S1x1000.BroadcastsInDim S8192x1000 (![0, 1] : Fin 2 → Fin S8192x1000.rank)
  dot_S8192x512_S1024x512_S8192x1024_1_1_0_0_n_n_wf : DotDims.WF S8192x512 S1024x512 S8192x1024 [1] [1] [0] [0] [] []
  dot_S8192x1024_S1000x1024_S8192x1000_1_1_0_0_n_n_wf : DotDims.WF S8192x1024 S1000x1024 S8192x1000 [1] [1] [0] [0] [] []

variable [Facts₀]

def dot_S8192x512_S1024x512_S8192x1024_1_1_0_0_n_n : DotDims S8192x512 S1024x512 S8192x1024 where
  lhsContracting := [1]
  rhsContracting := [1]
  lhsNonContracting := [0]
  rhsNonContracting := [0]
  lhsBatch := []
  rhsBatch := []
  wf := dot_S8192x512_S1024x512_S8192x1024_1_1_0_0_n_n_wf
def dot_S8192x1024_S1000x1024_S8192x1000_1_1_0_0_n_n : DotDims S8192x1024 S1000x1024 S8192x1000 where
  lhsContracting := [1]
  rhsContracting := [1]
  lhsNonContracting := [0]
  rhsNonContracting := [0]
  lhsBatch := []
  rhsBatch := []
  wf := dot_S8192x1024_S1000x1024_S8192x1000_1_1_0_0_n_n_wf

class Facts : Prop extends Facts₀ where

variable [Facts]
-- ==== Proof.Spec.lean ====
/-
  The function both programs compute, index by index, on the extended reals.

  For a batch row `r` and a centre `n` write
    q r   = Σ_k x[r,k]²,      p n = Σ_k mu[n,k]²,      c r n = Σ_k x[r,k] · mu[n,k],
    d r n = max (q r + p n − 2 · c r n) 0        (the squared distance |x_r − mu_n|², clamped at 0).
  The radial basis value is the Gaussian of that distance with width `s n`. One program multiplies the
  distance by the precomputed factor (−½)/s², the other divides (−½)·d by s² at the end:
    φK r n = exp (d r n · ((−½) / (s n · s n))),      φR r n = exp (((−½) · d r n) / (s n · s n)).
  The result is the linear layer  out[r,c] = Σ_n φ r n · W[c,n] + b[c].

  For s n ≠ 0 the quotient by s² IS the product with (s²)⁻¹, so φK and φR differ only in the order of
  three factors of a commutative, associative product: they agree on every extended real, the infinite
  ones included, and no finiteness is needed. (At s n = 0 the quotient follows its own conventions and the
  two differ: (−½)/0 = −∞ and 0 · (−∞) = 0, while 0/0 = −∞.)
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The shapes of the five arguments and of the result. -/
abbrev SX : Shape := ⟨2, ![8192, 512]⟩
abbrev SMu : Shape := ⟨2, ![1024, 512]⟩
abbrev SSig : Shape := ⟨1, ![1024]⟩
abbrev SW : Shape := ⟨2, ![1000, 1024]⟩
abbrev SB : Shape := ⟨1, ![1000]⟩
abbrev SOut : Shape := ⟨2, ![8192, 1000]⟩

/-- The three float literals of the formula, as the extended reals their words denote: 2, −½ and 0. -/
abbrev two : EReal := Ideal.ofBits .f32 0x40000000#32
abbrev negHalf : EReal := Ideal.ofBits .f32 0xBF000000#32
abbrev zero : EReal := Ideal.ofBits .f32 0x00000000#32

/-- `q r`: the squared norm of row `r` of `x`. -/
def rowSq (x : SX.Idx → EReal) (r : Fin 8192) : EReal := ∑ k : Fin 512, x (ix2 r k) * x (ix2 r k)

/-- `p n`: the squared norm of centre `n`. -/
def ctrSq (mu : SMu.Idx → EReal) (n : Fin 1024) : EReal := ∑ k : Fin 512, mu (ix2 n k) * mu (ix2 n k)

/-- `c r n`: the inner product of row `r` of `x` with centre `n`. -/
def cross (x : SX.Idx → EReal) (mu : SMu.Idx → EReal) (r : Fin 8192) (n : Fin 1024) : EReal :=
  ∑ k : Fin 512, x (ix2 r k) * mu (ix2 n k)

/-- `d r n`: the squared distance by the expansion |x|² + |mu|² − 2 x·mu, clamped at 0. -/
def dist2 (x : SX.Idx → EReal) (mu : SMu.Idx → EReal) (r : Fin 8192) (n : Fin 1024) : EReal :=
  max (rowSq x r + ctrSq mu n - two * cross x mu r n) zero

/-- The width factor (−½)/s², computed once per centre. -/
def invHalf (s : SSig.Idx → EReal) (n : Fin 1024) : EReal := Ideal.div negHalf (s (ix1 n) * s (ix1 n))

/-- The basis value with the width factor multiplied in: exp (d · ((−½)/s²)). -/
def phiK (x : SX.Idx → EReal) (mu : SMu.Idx → EReal) (s : SSig.Idx → EReal) (r : Fin 8192) (n : Fin 1024) : EReal :=
  Ideal.exp (dist2 x mu r n * invHalf s n)

/-- The basis value with the division last: exp (((−½) · d)/s²). -/
def phiR (x : SX.Idx → EReal) (mu : SMu.Idx → EReal) (s : SSig.Idx → EReal) (r : Fin 8192) (n : Fin 1024) : EReal :=
  Ideal.exp (Ideal.div (negHalf * dist2 x mu r n) (s (ix1 n) * s (ix1 n)))

/-- The linear layer over a basis `φ`: out[r,c] = Σ_n φ r n · W[c,n] + b[c]. -/
def layer (φ : Fin 8192 → Fin 1024 → EReal) (W : SW.Idx → EReal) (b : SB.Idx → EReal) (r : Fin 8192) (c : Fin 1000) : EReal :=
  (∑ n : Fin 1024, φ r n * W (ix2 c n)) + b (ix1 c)

/-- The result array with the width factor multiplied in. -/
def outK (x : SX.Idx → EReal) (mu : SMu.Idx → EReal) (s : SSig.Idx → EReal) (W : SW.Idx → EReal) (b : SB.Idx → EReal) :
    SOut.Idx → EReal := fun i => layer (phiK x mu s) W b (i 0) (i 1)

/-- The result array with the division last. -/
def outR (x : SX.Idx → EReal) (mu : SMu.Idx → EReal) (s : SSig.Idx → EReal) (W : SW.Idx → EReal) (b : SB.Idx → EReal) :
    SOut.Idx → EReal := fun i => layer (phiR x mu s) W b (i 0) (i 1)

/-- For a nonzero divisor `t` the quotient is the product with `t⁻¹`, and d · (a · t⁻¹) = (a · d) · t⁻¹ by
    commutativity and associativity alone. -/
theorem mul_div_eq_div_mul (d a t : EReal) (ht : t ≠ 0) : d * Ideal.div a t = Ideal.div (a * d) t := by
  unfold Ideal.div
  rw [if_neg ht, if_neg ht, mul_left_comm, mul_assoc]

/-- A nonzero width has a nonzero square: the extended reals have no zero divisors. -/
theorem sq_ne_zero_of_ne_zero {a : EReal} (h : a ≠ 0) : a * a ≠ 0 := mul_ne_zero h h

/-- With a nonzero width the two basis values are one extended real. -/
theorem phiK_eq_phiR (x : SX.Idx → EReal) (mu : SMu.Idx → EReal) (s : SSig.Idx → EReal) (r : Fin 8192) (n : Fin 1024)
    (hs : s (ix1 n) ≠ 0) : phiK x mu s r n = phiR x mu s r n := by
  unfold phiK phiR invHalf
  rw [mul_div_eq_div_mul _ _ _ (sq_ne_zero_of_ne_zero hs)]

/-- So with every width nonzero the two result arrays are equal. -/
theorem outK_eq_outR (x : SX.Idx → EReal) (mu : SMu.Idx → EReal) (s : SSig.Idx → EReal) (W : SW.Idx → EReal) (b : SB.Idx → EReal)
    (hs : ∀ n : Fin 1024, s (ix1 n) ≠ 0) : outK x mu s W b = outR x mu s W b := by
  funext i
  unfold outK outR layer
  refine congrArg (· + b (ix1 (i 1))) (Finset.sum_congr rfl fun n _ => ?_)
  rw [phiK_eq_phiR x mu s (i 0) n (hs n)]

end Cert.Spec

end
-- ==== Proof.RefSpec.lean ====
/-
  The reference program, read one operation at a time, computes the function \`Spec.outR\`.

  Write x = argument 0 (8192 rows of 512), mu = argument 1 (1024 centres of 512), s = argument 2 (1024 widths),
  W = argument 3 (1000 x 1024 weights), b = argument 4 (1000 biases). On the extended reals the reference's
  stages are, for a row r, a centre n and an output column c:

    v1[r]    = 0 + Σ_k x[r,k] · x[r,k]                 = q r      (the squared norm of row r)
    v4[n]    = 0 + Σ_k mu[n,k] · mu[n,k]               = p n      (the squared norm of centre n)
    v5[r,n]  = Σ_k x[r,k] · mu[n,k]                    = c r n    (the inner product)
    v7[r,n]  = v1[r],   v8[r,n] = v4[n]                           (two broadcasts, each through a size-one axis)
    v9       = v7 + v8,  v11 = 2 · v5,  v12 = v9 − v11            (the expansion |x|² + |mu|² − 2 x·mu)
    v14[r,n] = max v12[r,n] 0                          = d r n    (the squared distance, clamped at 0)
    v16      = (−½) · v14
    v19[r,n] = s[n] · s[n]                                         (the square of the width, broadcast over rows)
    v21[r,n] = exp (v16[r,n] / v19[r,n])               = φR r n   (the Gaussian, the division by s² last)
    v22[r,c] = Σ_n v21[r,n] · W[c,n]
    v25[r,c] = v22[r,c] + b[c]                         = the linear layer over φR.

  Each stage is read at an index built from its coordinates. A broadcast reads its operand at an index obtained by
  dropping or fixing a coordinate, a contraction reads its two operands at the indices (r,k) and (n,k): the first
  block of lemmas says what these index functions are at an index given by coordinates. The zero the two sums of
  squares start from is the extended real 0, and 0 + S = S. The literals 2, −½ and the 0 inside the maximum are kept
  as the words the program prints: the specification is written with the same words, so nothing is evaluated.
-/
import proofs.«111526_j82970178224745_2_alg».proof.Proof.Gen.ReferenceIdeal.Read
import proofs.«111526_j82970178224745_2_alg».proof.Proof.Spec

noncomputable section

namespace Cert.RefSpec

open Idealize.ShloMosaic Idealize.ShloMosaic.ValueIdx Cert.ReferenceIdeal Cert.ReferenceIdeal.Read

/-! ## Where each layout operation and each contraction reads, at an index given by its coordinates -/

/-- Term k of the sum for row r of x² sits at (r, k). -/
theorem idx_v1 (r : Fin 8192) (k : Fin 512) : idx_main_v1 (ix1 r) k = ix2 r k :=
  funext fun a => Fin.ext (by match a with | ⟨0, _⟩ => rfl | ⟨1, _⟩ => rfl)

/-- Term k of the sum for centre n of mu² sits at (n, k). -/
theorem idx_v4 (n : Fin 1024) (k : Fin 512) : idx_main_v4 (ix1 n) k = ix2 n k :=
  funext fun a => Fin.ext (by match a with | ⟨0, _⟩ => rfl | ⟨1, _⟩ => rfl)

/-- Term k of the inner product for (r, n) takes x at (r, k) … -/
theorem lidx_v5 (r : Fin 8192) (n : Fin 1024) (k : Fin 512) : lidx_main_v5 (ix2 r n) k = ix2 r k :=
  funext fun a => Fin.ext (by match a with | ⟨0, _⟩ => rfl | ⟨1, _⟩ => rfl)

/-- … and mu at (n, k). -/
theorem ridx_v5 (r : Fin 8192) (n : Fin 1024) (k : Fin 512) : ridx_main_v5 (ix2 r n) k = ix2 n k :=
  funext fun a => Fin.ext (by match a with | ⟨0, _⟩ => rfl | ⟨1, _⟩ => rfl)

/-- The row norms broadcast to (r, n) through the shape 8192 x 1 are read at r. -/
theorem idx_v7 (r : Fin 8192) (n : Fin 1024) : idx_main_v2 (idx_main_v7 (ix2 r n)) = ix1 r :=
  funext fun a => Fin.ext (by match a with | ⟨0, _⟩ => rfl)

/-- The centre norms broadcast to (r, n) through the shape 1 x 1024 are read at n. -/
theorem idx_v8 (r : Fin 8192) (n : Fin 1024) : idx_main_v6 (idx_main_v8 (ix2 r n)) = ix1 n :=
  funext fun a => Fin.ext (by match a with | ⟨0, _⟩ => rfl)

/-- The squared widths broadcast to (r, n) through the shape 1 x 1024 are read at n. -/
theorem idx_v19 (r : Fin 8192) (n : Fin 1024) : idx_main_v18 (idx_main_v19 (ix2 r n)) = ix1 n :=
  funext fun a => Fin.ext (by match a with | ⟨0, _⟩ => rfl)

/-- Term n of the linear layer for (r, c) takes the basis value at (r, n) … -/
theorem lidx_v22 (r : Fin 8192) (c : Fin 1000) (n : Fin 1024) : lidx_main_v22 (ix2 r c) n = ix2 r n :=
  funext fun a => Fin.ext (by match a with | ⟨0, _⟩ => rfl | ⟨1, _⟩ => rfl)

/-- … and the weight at (c, n). -/
theorem ridx_v22 (r : Fin 8192) (c : Fin 1000) (n : Fin 1024) : ridx_main_v22 (ix2 r c) n = ix2 c n :=
  funext fun a => Fin.ext (by match a with | ⟨0, _⟩ => rfl | ⟨1, _⟩ => rfl)

/-- The biases broadcast to (r, c) through the shape 1 x 1000 are read at c. -/
theorem idx_v24 (r : Fin 8192) (c : Fin 1000) : idx_main_v23 (idx_main_v24 (ix2 r c)) = ix1 c :=
  funext fun a => Fin.ext (by match a with | ⟨0, _⟩ => rfl)

/-! ## The stages -/

/-- v1[r] = 0 + Σ_k x[r,k] · x[r,k] = q r: the sum starts from the extended real 0, and 0 + S = S. -/
theorem v1_eq (x0 : (⟨S8192x512, .f32⟩ : BufTy).Contents (Elt Ideal)) (r : Fin 8192) :
    val_main_v1 (F := Ideal) x0 (ix1 r) = Cert.Spec.rowSq x0 r := by
  rw [val_main_v1_apply]
  simp only [val_main_cst_apply, val_main_v0_apply, idx_v1, Ideal.ofBits_def, Ideal.mulf_def,
    Ideal.ofBits_zero_f32, zero_add]
  rfl

/-- v4[n] = 0 + Σ_k mu[n,k] · mu[n,k] = p n, in the same way. -/
theorem v4_eq (x1 : (⟨S1024x512, .f32⟩ : BufTy).Contents (Elt Ideal)) (n : Fin 1024) :
    val_main_v4 (F := Ideal) x1 (ix1 n) = Cert.Spec.ctrSq x1 n := by
  rw [val_main_v4_apply]
  simp only [val_main_cst_0_apply, val_main_v3_apply, idx_v4, Ideal.ofBits_def, Ideal.mulf_def,
    Ideal.ofBits_zero_f32, zero_add]
  rfl

/-- v5[r,n] = Σ_k x[r,k] · mu[n,k] = c r n. -/
theorem v5_eq (x0 : (⟨S8192x512, .f32⟩ : BufTy).Contents (Elt Ideal)) (x1 : (⟨S1024x512, .f32⟩ : BufTy).Contents (Elt Ideal))
    (r : Fin 8192) (n : Fin 1024) :
    val_main_v5 (F := Ideal) x0 x1 (ix2 r n) = Cert.Spec.cross x0 x1 r n := by
  rw [val_main_v5_apply]
  simp only [lidx_v5, ridx_v5]
  rfl

/-- v14[r,n] = max ((v1[r] + v4[n]) − 2 · v5[r,n]) 0 = d r n: the two broadcasts read the norms at r and at n, the
    two splat constants read their words 2 and 0, and the three arithmetic operations are the extended reals'. -/
theorem v14_eq (x0 : (⟨S8192x512, .f32⟩ : BufTy).Contents (Elt Ideal)) (x1 : (⟨S1024x512, .f32⟩ : BufTy).Contents (Elt Ideal))
    (r : Fin 8192) (n : Fin 1024) :
    val_main_v14 (F := Ideal) x0 x1 (ix2 r n) = Cert.Spec.dist2 x0 x1 r n := by
  simp only [val_main_v14_apply, val_main_v12_apply, val_main_v9_apply, val_main_v11_apply, val_main_v7_apply,
    val_main_v2_apply, val_main_v8_apply, val_main_v6_apply, val_main_v10_apply, val_main_v13_apply,
    val_main_cst_1_apply, val_main_cst_2_apply, idx_v7, idx_v8, v1_eq, v4_eq, v5_eq,
    Ideal.maximumf_def, Ideal.subf_def, Ideal.addf_def, Ideal.mulf_def, Ideal.ofBits_def]
  rfl

/-- v21[r,n] = exp (((−½) · v14[r,n]) / (s[n] · s[n])) = φR r n: the divisor is the square of the width, read at n
    through its broadcast, and the host's quotient and exponential are the extended reals' conventions. -/
theorem v21_eq (x0 : (⟨S8192x512, .f32⟩ : BufTy).Contents (Elt Ideal)) (x1 : (⟨S1024x512, .f32⟩ : BufTy).Contents (Elt Ideal))
    (x2 : (⟨S1024, .f32⟩ : BufTy).Contents (Elt Ideal)) (r : Fin 8192) (n : Fin 1024) :
    val_main_v21 (F := Ideal) x0 x1 x2 (ix2 r n) = Cert.Spec.phiR x0 x1 x2 r n := by
  simp only [val_main_v21_apply, val_main_v20_apply, val_main_v16_apply, val_main_v15_apply, val_main_cst_3_apply,
    val_main_v19_apply, val_main_v18_apply, val_main_v17_apply, idx_v19, v14_eq,
    Ideal.hostUnary_exp_def, Ideal.hostDivf_def, Ideal.mulf_def, Ideal.ofBits_def]
  rfl

/-! ## The result -/

/-- v25[r,c] = Σ_n v21[r,n] · W[c,n] + b[c] with v21 = φR: the reference's result array is \`Spec.outR\`. -/
theorem val_eq_outR (x0 : (⟨S8192x512, .f32⟩ : BufTy).Contents (Elt Ideal)) (x1 : (⟨S1024x512, .f32⟩ : BufTy).Contents (Elt Ideal)) (x2 : (⟨S1024, .f32⟩ : BufTy).Contents (Elt Ideal)) (x3 : (⟨S1000x1024, .f32⟩ : BufTy).Contents (Elt Ideal)) (x4 : (⟨S1000, .f32⟩ : BufTy).Contents (Elt Ideal)) :
    val_main_v25 (F := Ideal) x0 x1 x2 x3 x4 = Cert.Spec.outR x0 x1 x2 x3 x4 := by
  funext i
  -- every index of the result is (r, c) for a row r and an output column c
  obtain ⟨r, c, rfl⟩ : ∃ (r : Fin 8192) (c : Fin 1000), i = ix2 r c := ⟨i 0, i 1, eq_ix2 i⟩
  rw [val_main_v25_apply, val_main_v22_apply, val_main_v24_apply, val_main_v23_apply, idx_v24]
  simp only [Ideal.addf_def, lidx_v22, ridx_v22, v21_eq]
  rfl

end Cert.RefSpec

end
-- ==== Proof.PreDecode.lean ====
/-
  What the precondition says about the widths.

  The precondition is a test of the five input arrays that answers with one truth bit, and the hypothesis is that
  the bit is 1. The bit is a conjunction of six "for all elements" tests, one after another:
    for all (r,k)  |x[r,k]|  < +∞,     for all (n,k)  |mu[n,k]| < +∞,     for all n  |s[n]| < +∞,
    for all (c,n)  |W[c,n]|  < +∞,     for all c      |b[c]|    < +∞,     for all n  s[n] ≠ 0.
  Each test compares every element of an array with a constant spread over the array's shape, which gives an array of
  bits, and then folds that array by "and" starting from the bit 1; the six folded bits are joined by "and", the first
  with the second, the result with the third, and so on, so the sixth test is the right-hand side of the LAST "and".

  Only the sixth test is used by the proof, and it is read back in three steps.
    (1) An "and" of two bits is 1 only when both are 1, so the sixth folded bit is 1.
    (2) A fold by "and" that starts at 1 and ends at 1 has met only 1s, so for every centre n the bit of the
        comparison "s[n] differs from the spread constant at n" is 1.
    (3) The spread constant is the float word 0x00000000 at every index, and that word denotes the extended real 0;
        on the extended reals the comparison "differs" is the honest s[n] ≠ 0, and its bit is 1 exactly when it holds.
  Hence s[n] ≠ 0 for every centre n. The five finiteness tests are not needed: the two programs agree on every
  extended real, the infinite ones included, once the widths are nonzero.
-/
import proofs.«111526_j82970178224745_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.PreDecode

open Idealize.ShloMosaic Idealize.ShloMosaic.ValueIdx Cert.Pre_finite_inputs
open Cert.Pre_finite_inputs.Facts

/-- The bit of a truth value is 1 exactly when the truth value is "true". -/
theorem ofBool_eq_one (b : Bool) : BitVec.ofBool b = 1#1 ↔ b = true := by cases b <;> decide

/-- The result of a fold over all axes has rank 0, and a rank-0 array has exactly one index (an index is a choice of
    one coordinate per axis, and there is no axis). -/
instance : Subsingleton S_.Idx := ⟨fun a b => funext fun d => d.elim0⟩

/-- Step (1). The second half of the precondition ends in "… and (fold by and of the bits s[n] ≠ 0)". Whatever the
    four things computed before it are (here they are arbitrary: the widths, the biases, the conjunction of the first
    three tests and the bit array of the fourth), if the whole is 1 at the one index, then the last folded bit is 1. -/
theorem last_test [Cert.Pre_finite_inputs.Facts] (a2 : FVec Ideal S1024 .f32) (a4 : FVec Ideal S1000 .f32) (v13 : IVec S_ 1)
    (v16 : IVec S1000x1024 1) (h : fn_part1 (F := Ideal) a2 a4 v13 v16 ix0 = 1#1) :
    Host.reduce IntOp.andi (cmpf .une a2 (broadcastInDim S1024 ![] bcast_S_S1024 (constant S_ .f32 0x00000000#32)))
      (constantI S_ 1 1#1) reducesTo_S1024_S_d0 h_S_ ix0 = 1#1 := by
  -- Unfolding the chain of named intermediate results shows its last line, the "and" of two rank-0 bit arrays;
  -- read at the one index it is the "and" of their two bits.
  dsimp only [fn_part1, andi] at h
  -- Both bits of an "and" that is 1 are 1; the right one is the sixth test.
  exact (IntOp.andi_eq_one.1 h).2

/-- Steps (2) and (3). THE PRECONDITION DECODED: every width is a nonzero extended real. -/
theorem width_ne_zero [Cert.Pre_finite_inputs.Facts] (x0 : FVec Ideal S8192x512 .f32) (x1 : FVec Ideal S1024x512 .f32) (x2 : FVec Ideal S1024 .f32) (x3 : FVec Ideal S1000x1024 .f32) (x4 : FVec Ideal S1000 .f32)
    (h : Cert.Pre_finite_inputs.fn (F := Ideal) x0 x1 x2 x3 x4 = fun _ => 1#1) (n : Fin 1024) : x2 (ix1 n) ≠ 0 := by
  -- The answer is a rank-0 array; read the hypothesis at its one index.
  have h0 : fn (F := Ideal) x0 x1 x2 x3 x4 ix0 = 1#1 := congrFun h ix0
  -- The first half of the precondition only prepares the first three tests and the bit array of the fourth and hands
  -- them to the second half; nothing of them is looked at.
  unfold fn at h0
  -- (1) The sixth folded bit is 1.
  have h1 := last_test x2 x4 _ _ h0
  -- (2) The fold met only 1s: at the centre n the comparison bit is 1.
  have h2 := Host.reduce_andi_all _ _ reducesTo_S1024_S_d0 h_S_ ix0 h1 (ix1 n)
  -- A comparison of two arrays at an index compares their elements; on the extended reals it is the order's comparison.
  rw [cmpf_apply, Ideal.cmpf_def] at h2
  -- (3) The scalar constant spread over the 1024 centres reads, at every index, the one value of the constant: the
  -- extended real that the float word 0x00000000 denotes, which is 0.
  have hz : broadcastInDim S1024 ![] bcast_S_S1024 (constant (F := Ideal) S_ .f32 0x00000000#32) (ix1 n) = 0 :=
    Ideal.ofBits_zero_f32
  rw [hz] at h2
  -- The bit of "differs" is the bit of the truth value of s[n] ≠ 0; it is 1, so the truth value is "true".
  have h3 : decide (x2 (ix1 n) ≠ 0) = true := (ofBool_eq_one _).1 h2
  exact of_decide_eq_true h3

end Cert.PreDecode

end
-- ==== Proof.KPayload.lean ====
/-
  What one grid point of the kernel stores, read entry by entry.

  The body loads six blocks: a tile `x` of 1024 batch rows [1024, 512], the centres `c` [1024, 512], the
  centres' squared norms `m` [1024], the width factors `h` [1024], the weights `w` [1000, 1024] and the
  bias `b` [1000]. With
      d p n = max (Σ_k x[p,k]² + m[n] − 2 · Σ_k x[p,k] · c[n,k]) 0
  it stores, at (p, q) of its [1024, 1000] output tile,
      Σ_n exp (d p n · h[n]) · w[q,n] + b[q].
  On the extended reals a change of float format is the identity, a lane reduction and a matrix product
  into a zero accumulator are plain finite sums, and the reshapes and broadcasts only re-index; this module
  reads each such operation at an index and then the whole stored value.
-/
import proofs.«111526_j82970178224745_2_alg».proof.Proof.Gen.KernelIdeal.Skeleton
import proofs.«111526_j82970178224745_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-! ## The operations that are not pointwise, each read at an index -/

/-- The lane sum of a [1024, 512] block: at row `p` it is the sum over the 512 lanes of that row. -/
theorem laneSum_apply (v : FVec Ideal S1024x512 .f32) (p : Fin 1024) :
    multiReduction .add [1] S1024 v 0x00000000#32 reduces_S1024x512_S1024 (.inl rfl) rfl (ix1 p)
      = ∑ k : Fin 512, v (ix2 p k) := by
  refine (Ideal.multiReduction_add_single v 0x00000000#32 reduces_S1024x512_S1024 (.inl rfl) rfl (ix1 p)).trans ?_
  refine Finset.sum_congr rfl fun k _ => ?_
  exact congrArg v (funext fun a => Fin.ext (by match a with | ⟨0, _⟩ => rfl | ⟨1, _⟩ => rfl))

/-- A column kept as [1024, 1] and spread over the 1024 columns: at (p, n) it is the vector's entry `p`. -/
theorem colSpread_apply (v : FVec Ideal S1024 .f32) (p n : Fin 1024) :
    broadcastTo S1024x1024 (shapeCast S1024x1 v shapeCasts_S1024_S1024x1) broadcasts_S1024x1_S1024x1024 (ix2 p n)
      = v (ix1 p) := by
  refine (broadcastTo_apply _ broadcasts_S1024x1_S1024x1024 (ix2 p n) (ix2 p (0 : Fin 1)) fun ax => ?_).trans ?_
  · match ax with
    | ⟨0, _⟩ => show p.val = if (1024 : Nat) = 1 then 0 else p.val; rw [if_neg (by decide)]
    | ⟨1, _⟩ => show 0 = if (1 : Nat) = 1 then 0 else n.val; rw [if_pos rfl]
  · refine shapeCast_apply v shapeCasts_S1024_S1024x1 (ix2 p (0 : Fin 1)) (ix1 p) ?_
    rw [Shape.rowMajor_val_two, Shape.rowMajor_val_one]
    show p.val = p.val * 1 + 0
    omega

/-- A vector laid as one row [1, 1024] and spread over the 1024 rows: at (p, n) it is the vector's entry `n`. -/
theorem rowSpread_apply (v : FVec Ideal S1024 .f32) (p n : Fin 1024) :
    broadcastTo S1024x1024 (shapeCast S1x1024 v shapeCasts_S1024_S1x1024) broadcasts_S1x1024_S1024x1024 (ix2 p n)
      = v (ix1 n) :=
  (broadcastTo_1b_ab_apply _ broadcasts_S1x1024_S1024x1024 p n).trans (shapeCast_a_1a_apply v shapeCasts_S1024_S1x1024 0 n)

/-- The bias laid as one row [1, 1000] and spread over the 1024 rows: at (p, q) it is the bias entry `q`. -/
theorem biasSpread_apply (v : FVec Ideal S1000 .f32) (p : Fin 1024) (q : Fin 1000) :
    broadcastTo S1024x1000 (shapeCast S1x1000 v shapeCasts_S1000_S1x1000) broadcasts_S1x1000_S1024x1000 (ix2 p q)
      = v (ix1 q) :=
  (broadcastTo_1b_ab_apply _ broadcasts_S1x1000_S1024x1000 p q).trans (shapeCast_a_1a_apply v shapeCasts_S1000_S1x1000 0 q)

/-- The operand indices of the first matrix product at output (i₀, i₁) and contraction coordinate q: (i₀, q) and (i₁, q). -/
theorem cross_lhs0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide),
    dif_pos (show (0 : Fin S1024x512.rank) ∈ dot_S1024x512_S1024x512_S1024x1024_1_1_0_0_n_n.lhsNonContracting by decide)]
  rfl
theorem cross_lhs1 (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
theorem cross_rhs0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide),
    dif_pos (show (0 : Fin S1024x512.rank) ∈ dot_S1024x512_S1024x512_S1024x1024_1_1_0_0_n_n.rhsNonContracting by decide)]
  rfl
theorem cross_rhs1 (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- The first matrix product contracts the lanes of both operands: at (p, n) it is Σ_k a[p,k] · b[n,k]. -/
theorem crossProd_apply (a b : FVec Ideal S1024x512 .bf16) (p n : Fin 1024) :
    matmul dot_S1024x512_S1024x512_S1024x1024_1_1_0_0_n_n none a b (constant S1024x1024 .f32 0x00000000#32) (ix2 p n)
      = ∑ k : Fin 512, a (ix2 p k) * b (ix2 n k) := by
  refine (Ideal.matmul_constant_zero_apply dot_S1024x512_S1024x512_S1024x1024_1_1_0_0_n_n none a b (ix2 p n)).trans ?_
  rw [← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 p n) ((contrEquiv1 dot_S1024x512_S1024x512_S1024x1024_1_1_0_0_n_n 512 rfl rfl).symm k) = ix2 p k :=
    funext fun ax => Fin.ext (by
      match ax with
      | ⟨0, _⟩ => exact cross_lhs0 _ _
      | ⟨1, _⟩ => exact (cross_lhs1 _ _).trans hk)
  have er : dot_S1024x512_S1024x512_S1024x1024_1_1_0_0_n_n.rhsIdx (ix2 p n) ((contrEquiv1 dot_S1024x512_S1024x512_S1024x1024_1_1_0_0_n_n 512 rfl rfl).symm k) = ix2 n k :=
    funext fun ax => Fin.ext (by
      match ax with
      | ⟨0, _⟩ => exact cross_rhs0 _ _
      | ⟨1, _⟩ => exact (cross_rhs1 _ _).trans hk)
  rw [el, er]

/-- The operand indices of the second matrix product at output (i₀, i₁) and contraction coordinate q: (i₀, q) and (i₁, q). -/
theorem layer_lhs0 (i : S1024x1000.Idx) (q : dot_S1024x1024_S1000x1024_S1024x1000_1_1_0_0_n_n.contr.Idx) :
    (dot_S1024x1024_S1000x1024_S1024x1000_1_1_0_0_n_n.lhsIdx i q 0).val = (i 0).val := by
  unfold DotDims.lhsIdx
  rw [dif_neg (show ¬(0 : Fin S1024x1024.rank) ∈ dot_S1024x1024_S1000x1024_S1024x1000_1_1_0_0_n_n.lhsBatch by decide),
    dif_pos (show (0 : Fin S1024x1024.rank) ∈ dot_S1024x1024_S1000x1024_S1024x1000_1_1_0_0_n_n.lhsNonContracting by decide)]
  rfl
theorem layer_lhs1 (i : S1024x1000.Idx) (q : dot_S1024x1024_S1000x1024_S1024x1000_1_1_0_0_n_n.contr.Idx) :
    (dot_S1024x1024_S1000x1024_S1024x1000_1_1_0_0_n_n.lhsIdx i q 1).val = (q ⟨0, by decide⟩).val :=
  dot_S1024x1024_S1000x1024_S1024x1000_1_1_0_0_n_n.lhsIdx_val_of_single rfl i q
theorem layer_rhs0 (i : S1024x1000.Idx) (q : dot_S1024x1024_S1000x1024_S1024x1000_1_1_0_0_n_n.contr.Idx) :
    (dot_S1024x1024_S1000x1024_S1024x1000_1_1_0_0_n_n.rhsIdx i q 0).val = (i 1).val := by
  unfold DotDims.rhsIdx
  rw [dif_neg (show ¬(0 : Fin S1000x1024.rank) ∈ dot_S1024x1024_S1000x1024_S1024x1000_1_1_0_0_n_n.rhsBatch by decide),
    dif_pos (show (0 : Fin S1000x1024.rank) ∈ dot_S1024x1024_S1000x1024_S1024x1000_1_1_0_0_n_n.rhsNonContracting by decide)]
  rfl
theorem layer_rhs1 (i : S1024x1000.Idx) (q : dot_S1024x1024_S1000x1024_S1024x1000_1_1_0_0_n_n.contr.Idx) :
    (dot_S1024x1024_S1000x1024_S1024x1000_1_1_0_0_n_n.rhsIdx i q 1).val = (q ⟨0, by decide⟩).val :=
  dot_S1024x1024_S1000x1024_S1024x1000_1_1_0_0_n_n.rhsIdx_val_of_single rfl i q

/-- The second matrix product contracts the 1024 centres: at (p, q) it is Σ_n a[p,n] · b[q,n]. -/
theorem layerProd_apply (a : FVec Ideal S1024x1024 .bf16) (b : FVec Ideal S1000x1024 .bf16) (p : Fin 1024) (q : Fin 1000) :
    matmul dot_S1024x1024_S1000x1024_S1024x1000_1_1_0_0_n_n none a b (constant S1024x1000 .f32 0x00000000#32) (ix2 p q)
      = ∑ n : Fin 1024, a (ix2 p n) * b (ix2 q n) := by
  refine (Ideal.matmul_constant_zero_apply dot_S1024x1024_S1000x1024_S1024x1000_1_1_0_0_n_n none a b (ix2 p q)).trans ?_
  rw [← Equiv.sum_comp (contrEquiv1 dot_S1024x1024_S1000x1024_S1024x1000_1_1_0_0_n_n 1024 rfl rfl).symm]
  refine Finset.sum_congr rfl fun k _ => ?_
  have hk := contrEquiv1_symm_val dot_S1024x1024_S1000x1024_S1024x1000_1_1_0_0_n_n 1024 rfl rfl k
  have el : dot_S1024x1024_S1000x1024_S1024x1000_1_1_0_0_n_n.lhsIdx (ix2 p q) ((contrEquiv1 dot_S1024x1024_S1000x1024_S1024x1000_1_1_0_0_n_n 1024 rfl rfl).symm k) = ix2 p k :=
    funext fun ax => Fin.ext (by
      match ax with
      | ⟨0, _⟩ => exact layer_lhs0 _ _
      | ⟨1, _⟩ => exact (layer_lhs1 _ _).trans hk)
  have er : dot_S1024x1024_S1000x1024_S1024x1000_1_1_0_0_n_n.rhsIdx (ix2 p q) ((contrEquiv1 dot_S1024x1024_S1000x1024_S1024x1000_1_1_0_0_n_n 1024 rfl rfl).symm k) = ix2 q k :=
    funext fun ax => Fin.ext (by
      match ax with
      | ⟨0, _⟩ => exact layer_rhs0 _ _
      | ⟨1, _⟩ => exact (layer_rhs1 _ _).trans hk)
  rw [el, er]

/-- The exponential of a vector, read at an index. -/
theorem exp_apply {s : Shape} {φ : FTy} (a : FVec Ideal s φ) (i : s.Idx) : exp a i = Ideal.exp (a i) := rfl

/-! ## The whole payload at an index -/

/-- What the body stores at (p, q) of its output block, from the six loaded blocks: with
    d n = max (Σ_k x[p,k]² + m[n] − 2 · Σ_k x[p,k] · c[n,k]) 0, it is Σ_n exp (d n · h[n]) · w[q,n] + b[q]. -/
theorem pay_apply (v0 : Vec Ideal S1024x512 .f32) (v5 : Vec Ideal S1024x512 .bf16) (v8 v10 : Vec Ideal S1024 .f32)
    (v26 : Vec Ideal S1000x1024 .bf16) (v28 : Vec Ideal S1000 .f32) (p : Fin 1024) (q : Fin 1000) :
    k0_pay1 (F := Ideal) v0 v5 v8 v10 v26 v28 (ix2 p q)
      = (∑ n : Fin 1024, Ideal.exp (max ((∑ k : Fin 512, v0 (ix2 p k) * v0 (ix2 p k)) + v8 (ix1 n)
            - Cert.Spec.two * ∑ k : Fin 512, v0 (ix2 p k) * v5 (ix2 n k)) Cert.Spec.zero * v10 (ix1 n)) * v26 (ix2 q n))
          + v28 (ix1 q) := by
  unfold k0_pay1
  simp only [addf_apply, layerProd_apply, biasSpread_apply, truncf_apply, exp_apply, mulf_apply, maximumf_apply,
    subf_apply, colSpread_apply, rowSpread_apply, crossProd_apply, broadcast_apply, shapeCast_self]
  refine congrArg (· + v28 (ix1 q)) (Finset.sum_congr rfl fun n _ => ?_)
  refine congrArg (fun z => Ideal.exp (max (z + v8 (ix1 n) - _) _ * v10 (ix1 n)) * v26 (ix2 q n)) ?_
  refine (laneSum_apply (mulf v0 v0) p).trans ?_
  rfl

end Cert.KernelIdeal.Payload

end
-- ==== Proof.KWhole.lean ====
/-
  From the tiles to the whole array.

  The grid has 8 points; point `t` reads rows 1024·t … 1024·t + 1023 of `x` and the whole of the five other
  operands, and writes rows 1024·t … 1024·t + 1023 of the result. Four of the operands are computed from the
  arguments before the grid starts: the centres and the weights in a narrower float format (the same extended
  reals), the centres' squared norms  p n = 0 + Σ_k mu[n,k]²,  and the width factors  (−½) / (s n · s n).
  So entry (p, q) of the tile point `t` stores is entry (1024·t + p, q) of ONE function of the five argument
  arrays, `Spec.outK`; the eight tiles cover the result array, which therefore ends holding that function.
-/
import proofs.«111526_j82970178224745_2_alg».proof.Proof.Gen.KernelIdeal.Value
import proofs.«111526_j82970178224745_2_alg».proof.Proof.KPayload
import proofs.«111526_j82970178224745_2_alg».proof.Proof.Spec
import Idealize.ShloMosaic.Lib.Pipeline.Value
import Idealize.ShloMosaic.Lib.StableHlo.Run
import Idealize.ShloMosaic.Lib.Tactic

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-! ## What the region finds in the arrays computed before it -/

/-- The centres in the narrower format are the centres. -/
theorem V_centres (c : Dev nD) :
    (V m c main_v0 : S1024x512.Idx → EReal) = m ((c : Thread nD τ).loc main_arg1) := by
  dsimp only [Gen.V, Gen.hostOps0]; after_results; rfl

/-- The weights in the narrower format are the weights. -/
theorem V_weights (c : Dev nD) :
    (V m c main_v1 : S1000x1024.Idx → EReal) = m ((c : Thread nD τ).loc main_arg3) := by
  dsimp only [Gen.V, Gen.hostOps0]; after_results; rfl

/-- The centres' squared norms as the operations' term. -/
theorem V_ctrSq_term (c : Dev nD) :
    (V m c main_v3 : S1024.Idx → EReal)
      = Host.reduceAdd (F := Ideal) (mulf (m ((c : Thread nD τ).loc main_arg1)) (m ((c : Thread nD τ).loc main_arg1)))
          (constant (F := Ideal) S_ .f32 0x00000000#32) reducesTo_S1024x512_S1024_d1 h_S_ := by
  dsimp only [Gen.V, Gen.hostOps0]; after_results

/-- The host's sum of squares along the lanes, from the initial value 0: at `n` it is Σ_k mu[n,k]². -/
theorem hostSq_apply (mu : FVec Ideal S1024x512 .f32) (n : Fin 1024) :
    Host.reduceAdd (F := Ideal) (mulf mu mu) (constant (F := Ideal) S_ .f32 0x00000000#32)
        reducesTo_S1024x512_S1024_d1 h_S_ (ix1 n) = Cert.Spec.ctrSq mu n := by
  simp only [Host.reduceAdd, Ideal.hostReduceAdd_def]
  rw [Ideal.hostReduceAdd_single reducesTo_S1024x512_S1024_d1 (by decide)]
  show Ideal.ofBits .f32 0x00000000#32 + _ = _
  rw [Ideal.ofBits_zero_f32, zero_add]
  unfold Cert.Spec.ctrSq
  refine Finset.sum_congr rfl fun k _ => ?_
  exact congrArg (fun j => mu j * mu j) (funext fun a => Fin.ext (by match a with | ⟨0, _⟩ => rfl | ⟨1, _⟩ => rfl))

/-- Entry `n` of it is the squared norm of centre `n`. -/
theorem V_ctrSq (c : Dev nD) (n : Fin 1024) :
    (V m c main_v3 : S1024.Idx → EReal) (ix1 n) = Cert.Spec.ctrSq (m ((c : Thread nD τ).loc main_arg1)) n := by
  rw [V_ctrSq_term]
  exact hostSq_apply _ n

/-- The width factors as the operations' term. -/
theorem V_invHalf_term (c : Dev nD) :
    (V m c main_v6 : S1024.Idx → EReal)
      = Host.divf (F := Ideal) (broadcastInDim S1024 ![] bcast_S_S1024 (constant (F := Ideal) S_ .f32 0xBF000000#32))
          (mulf (m ((c : Thread nD τ).loc main_arg2)) (m ((c : Thread nD τ).loc main_arg2))) := by
  dsimp only [Gen.V, Gen.hostOps0]; after_results

/-- Entry `n` of it is (−½) / (s n · s n). -/
theorem V_invHalf (c : Dev nD) (n : Fin 1024) :
    (V m c main_v6 : S1024.Idx → EReal) (ix1 n) = Cert.Spec.invHalf (m ((c : Thread nD τ).loc main_arg2)) n := by
  rw [V_invHalf_term]
  rfl

/-! ## The printed index maps, decided over the eight grid points -/

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0 ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-! ## Each input block as entries of its array -/

/-- Point `t`'s tile of `x` is rows 1024·t … of the argument. -/
theorem xTile_apply (c : Dev nD) (t : Fin cfg0.N) (p : Fin 1024) (k : Fin 512) (r : Fin 8192)
    (hr : r.val = t.val * 1024 + p.val) :
    (iblk m c 0 t : Vec Ideal S1024x512 .f32) (ix2 p k)
      = (m ((c : Thread nD τ).loc main_arg0) : S8192x512.Idx → EReal) (ix2 r k) := by
  obtain ⟨e0, e1, -⟩ := idx_facts t
  unfold iblk
  rw [View.read_apply]
  show V m c main_arg0 _ = _
  rw [V_main_arg0]
  refine congrArg (m ((c : Thread nD τ).loc main_arg0) : S8192x512.Idx → EReal) (funext fun a => Fin.ext ?_)
  match a with
  | ⟨0, _⟩ => show win0_0.index t (0 : Fin 2) * 1024 + 1 * p.val = r.val; rw [e0, hr]; omega
  | ⟨1, _⟩ => show win0_0.index t (1 : Fin 2) * 512 + 1 * k.val = k.val; rw [e1]; omega

/-- The centres' block is the whole array. -/
theorem centres_apply (c : Dev nD) (t : Fin cfg0.N) (n : Fin 1024) (k : Fin 512) :
    (iblk m c 1 t : Vec Ideal S1024x512 .bf16) (ix2 n k) = (V m c main_v0 : S1024x512.Idx → EReal) (ix2 n k) := by
  obtain ⟨-, -, e0, e1, -⟩ := idx_facts t
  unfold iblk
  rw [View.read_apply]
  show V m c main_v0 _ = _
  refine congrArg (V m c main_v0 : S1024x512.Idx → EReal) (funext fun a => Fin.ext ?_)
  match a with
  | ⟨0, _⟩ => show win0_1.index t (0 : Fin 2) * 1024 + 1 * n.val = n.val; rw [e0]; omega
  | ⟨1, _⟩ => show win0_1.index t (1 : Fin 2) * 512 + 1 * k.val = k.val; rw [e1]; omega

/-- The squared norms' block is the whole array. -/
theorem ctrSq_apply (c : Dev nD) (t : Fin cfg0.N) (n : Fin 1024) :
    (iblk m c 2 t : Vec Ideal S1024 .f32) (ix1 n) = (V m c main_v3 : S1024.Idx → EReal) (ix1 n) := by
  obtain ⟨-, -, -, -, e0, -⟩ := idx_facts t
  unfold iblk
  rw [View.read_apply]
  show V m c main_v3 _ = _
  refine congrArg (V m c main_v3 : S1024.Idx → EReal) (funext fun a => Fin.ext ?_)
  match a with
  | ⟨0, _⟩ => show win0_2.index t (0 : Fin 1) * 1024 + 1 * n.val = n.val; rw [e0]; omega

/-- The width factors' block is the whole array. -/
theorem invHalf_apply (c : Dev nD) (t : Fin cfg0.N) (n : Fin 1024) :
    (iblk m c 3 t : Vec Ideal S1024 .f32) (ix1 n) = (V m c main_v6 : S1024.Idx → EReal) (ix1 n) := by
  obtain ⟨-, -, -, -, -, e0, -⟩ := idx_facts t
  unfold iblk
  rw [View.read_apply]
  show V m c main_v6 _ = _
  refine congrArg (V m c main_v6 : S1024.Idx → EReal) (funext fun a => Fin.ext ?_)
  match a with
  | ⟨0, _⟩ => show win0_3.index t (0 : Fin 1) * 1024 + 1 * n.val = n.val; rw [e0]; omega

/-- The weights' block is the whole array. -/
theorem weights_apply (c : Dev nD) (t : Fin cfg0.N) (q : Fin 1000) (n : Fin 1024) :
    (iblk m c 4 t : Vec Ideal S1000x1024 .bf16) (ix2 q n) = (V m c main_v1 : S1000x1024.Idx → EReal) (ix2 q n) := by
  obtain ⟨-, -, -, -, -, -, e0, e1, -⟩ := idx_facts t
  unfold iblk
  rw [View.read_apply]
  show V m c main_v1 _ = _
  refine congrArg (V m c main_v1 : S1000x1024.Idx → EReal) (funext fun a => Fin.ext ?_)
  match a with
  | ⟨0, _⟩ => show win0_4.index t (0 : Fin 2) * 1000 + 1 * q.val = q.val; rw [e0]; omega
  | ⟨1, _⟩ => show win0_4.index t (1 : Fin 2) * 1024 + 1 * n.val = n.val; rw [e1]; omega

/-- The bias' block is the whole argument. -/
theorem bias_apply (c : Dev nD) (t : Fin cfg0.N) (q : Fin 1000) :
    (iblk m c 5 t : Vec Ideal S1000 .f32) (ix1 q) = (m ((c : Thread nD τ).loc main_arg4) : S1000.Idx → EReal) (ix1 q) := by
  obtain ⟨-, -, -, -, -, -, -, -, e0, -⟩ := idx_facts t
  unfold iblk
  rw [View.read_apply]
  show V m c main_arg4 _ = _
  rw [V_main_arg4]
  refine congrArg (m ((c : Thread nD τ).loc main_arg4) : S1000.Idx → EReal) (funext fun a => Fin.ext ?_)
  match a with
  | ⟨0, _⟩ => show win0_5.index t (0 : Fin 1) * 1000 + 1 * q.val = q.val; rw [e0]; omega

/-! ## One point's tile is a tile of the whole function -/

/-- Entry (p, q) of what point `t` stores is entry (1024·t + p, q) of `Spec.outK` of the arguments. -/
theorem point_eq (c : Dev nD) (t : Fin cfg0.N) (p : Fin 1024) (q : Fin 1000) (r : Fin 8192)
    (hr : r.val = t.val * 1024 + p.val) :
    k0_pay1 (F := Ideal) (iblk m c 0 t) (iblk m c 1 t) (iblk m c 2 t) (iblk m c 3 t) (iblk m c 4 t) (iblk m c 5 t) (ix2 p q)
      = Cert.Spec.outK (m ((c : Thread nD τ).loc main_arg0)) (m ((c : Thread nD τ).loc main_arg1))
          (m ((c : Thread nD τ).loc main_arg2)) (m ((c : Thread nD τ).loc main_arg3))
          (m ((c : Thread nD τ).loc main_arg4)) (ix2 r q) := by
  refine (Cert.KernelIdeal.Payload.pay_apply (iblk m c 0 t) (iblk m c 1 t) (iblk m c 2 t) (iblk m c 3 t) (iblk m c 4 t)
    (iblk m c 5 t) p q).trans ?_
  simp only [fun k => xTile_apply m c t p k r hr, centres_apply m c t, ctrSq_apply m c t, invHalf_apply m c t,
    weights_apply m c t, bias_apply m c t, V_ctrSq m c, V_invHalf m c, V_centres m c, V_weights m c]
  rfl

/-! ## What point `t` writes back, the cover, the final array, the run -/

/-- What point `t` writes back is tile `t` of `Spec.outK` of the arguments. -/
theorem flushed_eq (c : Dev nD) (t : Fin cfg0.N) :
    (dats m 0 c).flushed 6 t = ((cfg0.win 6).blk t).view.read (Elt Ideal)
      (Cert.Spec.outK (m ((c : Thread nD τ).loc main_arg0)) (m ((c : Thread nD τ).loc main_arg1))
        (m ((c : Thread nD τ).loc main_arg2)) (m ((c : Thread nD τ).loc main_arg3))
        (m ((c : Thread nD τ).loc main_arg4))) := by
  rw [Cert.KernelIdeal.Value.flushed6]
  unfold out0_6
  rw [View.canon_unit_zero hz2]
  simp only [View.ld_unit_zero (S := S1024x512) hz2, View.ld_unit_zero (S := S1024) hz1,
    View.ld_unit_zero (S := S1000x1024) hz2, View.ld_unit_zero (S := S1000) hz1]
  obtain ⟨-, -, -, -, -, -, -, -, -, e0, e1⟩ := idx_facts t
  funext y
  have hy0 : (y 0).val < 1024 := (y 0).isLt
  have hy1 : (y 1).val < 1000 := (y 1).isLt
  have ht : t.val < 8 := lt_of_lt_of_eq t.isLt N_0
  have h := point_eq m c t ⟨(y 0).val, hy0⟩ ⟨(y 1).val, hy1⟩ ⟨t.val * 1024 + (y 0).val, by omega⟩ rfl
  refine Eq.trans ?_ (h.trans ?_)
  · exact congrArg _ (funext fun a => Fin.ext (by match a with | ⟨0, _⟩ => rfl | ⟨1, _⟩ => rfl))
  · show _ = Cert.Spec.outK _ _ _ _ _ (((cfg0.win 6).blk t).view.emb y)
    refine congrArg (Cert.Spec.outK _ _ _ _ _) (funext fun a => Fin.ext ?_)
    match a with
    | ⟨0, _⟩ => show t.val * 1024 + (y 0).val = win0_6.index t (0 : Fin 2) * 1024 + 1 * (y 0).val; rw [e0]; omega
    | ⟨1, _⟩ => show (y 1).val = win0_6.index t (1 : Fin 2) * 1000 + 1 * (y 1).val; rw [e1]; omega

/-- An index of the result is in point `t`'s tile iff each coordinate is in the tile's range on its axis. -/
theorem mem_tile (t : Fin cfg0.N) (i : S8192x1000.Idx) :
    i ∈ ((cfg0.win 6).blk t).view.set ↔ ∀ a : Fin 2, win0_6.index t a * S1024x1000.size a ≤ (i a).val ∧ (i a).val < win0_6.index t a * S1024x1000.size a + S1024x1000.size a := by
  show i ∈ ((View.whole main_v7).slice (win0_6.rect t)).set ↔ _
  rw [View.set_slice_whole, Rect.mem_set_unit]
  exact Iff.rfl

/-- Every index of the result lies in the tile of the point its row belongs to: row r in tile r / 1024. -/
theorem cover (i : S8192x1000.Idx) :
    ∃ t : Fin cfg0.N, (cfg0.win 6).flush t = true ∧ i ∈ ((cfg0.win 6).blk t).view.set := by
  have hi0 : (i 0).val < 8192 := (i 0).isLt
  have hi1 : (i 1).val < 1000 := (i 1).isLt
  have hN : cfg0.N = 8 := N_0
  let t : Fin cfg0.N := ⟨(i 0).val / 1024, by rw [hN]; omega⟩
  obtain ⟨-, -, -, -, -, -, -, -, -, e0, e1⟩ := idx_facts t
  refine ⟨t, flush0_6 t, ?_⟩
  rw [mem_tile]
  intro a
  have htv : t.val = (i 0).val / 1024 := rfl
  match a with
  | ⟨0, _⟩ => show win0_6.index t (0 : Fin 2) * 1024 ≤ (i 0).val ∧ (i 0).val < win0_6.index t (0 : Fin 2) * 1024 + 1024; rw [e0, htv]; omega
  | ⟨1, _⟩ => show win0_6.index t (1 : Fin 2) * 1000 ≤ (i 1).val ∧ (i 1).val < win0_6.index t (1 : Fin 2) * 1000 + 1000; rw [e1]; omega

/-- The result array after the run is `Spec.outK` of the arguments. -/
theorem final (c : Dev nD) :
    (dats m 0 c).arrAt 6 cfg0.N = Cert.Spec.outK (m ((c : Thread nD τ).loc main_arg0)) (m ((c : Thread nD τ).loc main_arg1))
        (m ((c : Thread nD τ).loc main_arg2)) (m ((c : Thread nD τ).loc main_arg3))
        (m ((c : Thread nD τ).loc main_arg4)) :=
  (dats m 0 c).arrAt_eq_of_cover 6 _ (fun t _ => flushed_eq m c t) cover

/-- The kernel's run: it terminates without a fault, the result array at `Spec.outK` of the arguments, the
    arguments unchanged. -/
theorem run : θ_run defs (onTc (τ := τ) (main (F := Ideal))) ⟨m, fun _ => 0, ρ⟩ fun r => ∀ c : Dev nD,
      r.2.mem ((c : Thread nD τ).loc main_v7) = Cert.Spec.outK (m ((c : Thread nD τ).loc main_arg0))
        (m ((c : Thread nD τ).loc main_arg1)) (m ((c : Thread nD τ).loc main_arg2))
        (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.KernelIdeal.Whole

end
-- ==== Proof.lean ====
/-
  The certificate of the radial-basis network: a fused kernel against its reference, on the extended reals.

  Both programs compute, for a batch row r, a centre n and an output column c,
      d r n = max (Σ_k x[r,k]² + Σ_k mu[n,k]² − 2 · Σ_k x[r,k] · mu[n,k]) 0,
      out[r,c] = Σ_n φ r n · W[c,n] + b[c],
  and differ in one place: the kernel multiplies the distance by a factor computed once per centre,
  φ = exp (d · ((−½) / s²)), where the reference divides last, φ = exp (((−½) · d) / s²). For a nonzero width
  the quotient by s² is the product with (s²)⁻¹ and the two are the same product of three factors, on every
  extended real (`Spec.outK_eq_outR`); the precondition says every input is finite and every width is nonzero,
  and only the second part is used (`PreDecode.width_ne_zero`).

  The kernel's result array is `Spec.outK` of the arguments (`KWhole`: the value one grid point stores, from
  `KPayload`, is a tile of that one function, and the eight tiles cover the array); the reference's is `Spec.outR`
  (`RefSpec`). The three frame claims are the generated runs; the idealization rewrote nothing, so the fourth
  claim is trivial.
-/
import proofs.«111526_j82970178224745_2_alg».proof.Defs
import proofs.«111526_j82970178224745_2_alg».proof.Proof.Gen.Kernel
import proofs.«111526_j82970178224745_2_alg».proof.Proof.Gen.Kernel.Skeleton
import proofs.«111526_j82970178224745_2_alg».proof.Proof.Gen.Kernel.Launch
import proofs.«111526_j82970178224745_2_alg».proof.Proof.Gen.Kernel.Points
import proofs.«111526_j82970178224745_2_alg».proof.Proof.Gen.Kernel.Frame
import proofs.«111526_j82970178224745_2_alg».proof.Proof.Gen.KernelIdeal
import proofs.«111526_j82970178224745_2_alg».proof.Proof.Gen.KernelIdeal.Skeleton
import proofs.«111526_j82970178224745_2_alg».proof.Proof.Gen.KernelIdeal.Launch
import proofs.«111526_j82970178224745_2_alg».proof.Proof.Gen.KernelIdeal.Points
import proofs.«111526_j82970178224745_2_alg».proof.Proof.Gen.KernelIdeal.Frame
import proofs.«111526_j82970178224745_2_alg».proof.Proof.Gen.ReferenceIdeal
import proofs.«111526_j82970178224745_2_alg».proof.Proof.Gen.Pre_finite_inputs
import proofs.«111526_j82970178224745_2_alg».proof.Proof.Gen.KernelIdeal.Value
import proofs.«111526_j82970178224745_2_alg».proof.Proof.Gen.ReferenceIdeal.Run
import proofs.«111526_j82970178224745_2_alg».proof.Proof.Gen.ReferenceIdeal.Read
import proofs.«111526_j82970178224745_2_alg».proof.Proof.Spec
import proofs.«111526_j82970178224745_2_alg».proof.Proof.RefSpec
import proofs.«111526_j82970178224745_2_alg».proof.Proof.PreDecode
import proofs.«111526_j82970178224745_2_alg».proof.Proof.KWhole
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is a straight line of array operations: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the five arguments, with every width nonzero, the two programs end with the same
    result array: the kernel's is Σ_n exp (d · ((−½)/s²)) · W + b, the reference's Σ_n exp (((−½) · d)/s²) · W + b,
    and the two exponents are one product of three factors. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.RefSpec.val_eq_outR,
    (hagree c).1, (hagree c).2.1, (hagree c).2.2.1, (hagree c).2.2.2.1, (hagree c).2.2.2.2]
  exact (Cert.Spec.outK_eq_outR _ _ _ _ _ fun n => Cert.PreDecode.width_ne_zero _ _ _ _ _ (hpre c) n).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
